-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384x1 : Shape := ⟨2, ![16384, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384x1 : S_.BroadcastsInDim S16384x1 (![] : Fin 0 → Fin S16384x1.rank)
  reducesTo_S16384x1_S_d0_1 : S16384x1.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4x2048x4096 .f32) (main_arg1 : FVec F S16384x4096 .f32) (main_arg2 : FVec F S16384x1 .f32) (main_arg3 : FVec F S_ .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4x2048x4096 : Shape := ⟨3, ![4, 2048, 4096]⟩
abbrev S16384x4096 : Shape := ⟨2, ![16384, 4096]⟩
abbrev S16384x1 : Shape := ⟨2, ![16384, 1]⟩
abbrev S_ : Shape := ⟨0, ![]⟩
abbrev S8192x4096 : Shape := ⟨2, ![8192, 4096]⟩
abbrev S1x1 : Shape := ⟨2, ![1, 1]⟩
abbrev S8192x16384 : Shape := ⟨2, ![8192, 16384]⟩
abbrev S512x4096 : Shape := ⟨2, ![512, 4096]⟩
abbrev S512x1 : Shape := ⟨2, ![512, 1]⟩
abbrev S512x512 : Shape := ⟨2, ![512, 512]⟩
abbrev S4x2048x16384 : Shape := ⟨3, ![4, 2048, 16384]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x1, .f32⟩
  | .hbm, ⟨3, _⟩ => ⟨S_, .f32⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S8192x16384, .f32⟩
  | .hbm, ⟨16, _⟩ => ⟨S4x2048x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | .local _ .vmem, ⟨6, _⟩ => ⟨S1x1, .f32⟩
  | .local _ .vmem, ⟨7, _⟩ => ⟨S512x512, .f32⟩
  | .local _ .vmem, ⟨8, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S_S1x1 : S_.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  broadcasts_S512x1_S512x4096 : S512x1.Broadcasts S512x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x512_S512x512_0_0 : ∀ a, (![0, 0] : Fin 2 → Nat) a + S512x512.size a ≤ S512x512.size a
  h_S512x512 : 0 < S512x512.numel
  shapeCasts_S8192x16384_S4x2048x16384 : S8192x16384.ShapeCasts S4x2048x16384
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x16384.size a
  hwx0_4 : ∀ i : grid0.Coords, EltTy.bits .f32 = 32 ∨ (Rect.block (s := S8192x16384) S512x512.size (cc0_transform_4 i) (hinb0_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384x1 : Shape := ⟨2, ![16384, 1]⟩
abbrev S_ : Shape := ⟨0, ![]⟩
abbrev S4x2048x16384 : Shape := ⟨3, ![4, 2048, 16384]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x1, .f32⟩
  | .hbm, ⟨3, _⟩ => ⟨S_, .f32⟩
  | .hbm, ⟨4, _⟩ => ⟨S4x2048x4096, .f32⟩
  | .hbm, ⟨5, _⟩ => ⟨S_, .f32⟩
  | .hbm, ⟨6, _⟩ => ⟨S4x2048x4096, .f32⟩
  | .hbm, ⟨7, _⟩ => ⟨S4x2048x4096, .i1⟩
  | .hbm, ⟨8, _⟩ => ⟨S_, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .i1⟩
  | .hbm, ⟨22, _⟩ => ⟨S_, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S4x2048x16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048x16384, .f32⟩
  | .hbm, ⟨43, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  bcast_S_S4x2048x16384 : S_.BroadcastsInDim S4x2048x16384 (![] : Fin 0 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.BinSpec.lean ====
/-
  The function both programs compute, and the scalar identities that make the reference's spelling of it the kernel's.

  For x : [4, 2048, 4096], w : [16384, 4096], th : [16384, 1] and a scalar s, the result at (b, r, o) is
      (∑ k < 4096, sgn (x b r k) · sgn (w o k − th o 0)) · 2 ^ round (clip s (−8) 0),
  where sgn v is 1 for 0 ≤ v and −1 below zero. The kernel selects ±1 directly. The reference writes each sign as
  (sgn v − tanh v) + tanh v and the exponent as c + (round c − c): on the extended reals these collapse because tanh v
  and the clipped c are always finite (tanh maps ±∞ to ±1; a clip between two finite bounds is finite), so no
  hypothesis on the inputs is used.
-/
import Idealize.ShloMosaic.PureOps.Ideal.Laws
import Idealize.ShloMosaic.Lib.IdealHost
import Idealize.ShloMosaic.Lib.ValueIdx

noncomputable section

namespace Cert.BinLinear

open Idealize.ShloMosaic Idealize.ShloMosaic.ValueIdx

/-- The hard sign: 1 at and above zero, −1 below. -/
def hardSign (v : EReal) : EReal := if 0 ≤ v then 1 else -1

/-- A select on the comparison "v ≥ 0" is the conditional on 0 ≤ v. -/
theorem select_oge_zero {α : Type} (v : EReal) (a b : α) :
    Scalar.select (Ideal.cmp .oge v 0) a b = if 0 ≤ v then a else b := by
  unfold Scalar.select Ideal.cmp
  by_cases h : (0 : EReal) ≤ v <;> simp [h]

/-- A real minus a real plus that real again is the first, as extended reals. -/
theorem coe_sub_add_cancel (a r : ℝ) : (a : EReal) - (r : EReal) + (r : EReal) = (a : EReal) := by
  rw [← EReal.coe_sub, ← EReal.coe_add, sub_add_cancel]

/-- A real plus the difference of another real and it is the other, as extended reals. -/
theorem coe_add_sub_cancel (c r : ℝ) : (c : EReal) + ((r : EReal) - (c : EReal)) = (r : EReal) := by
  rw [← EReal.coe_sub, ← EReal.coe_add, add_sub_cancel]

/-- The hyperbolic tangent of an extended real is a real number (±1 at the infinities). -/
theorem tanh_real (v : EReal) : ∃ r : ℝ, Ideal.tanh v = (r : EReal) := by
  induction v using EReal.rec with
  | bot => exact ⟨-1, by rw [EReal.coe_neg, EReal.coe_one]; rfl⟩
  | top => exact ⟨1, by rw [EReal.coe_one]; rfl⟩
  | coe r => exact ⟨Real.tanh r, rfl⟩

/-- The kernel's sign of an element: select (v ≥ 0.0) between the bf16 patterns of 1.0 and −1.0. -/
theorem kernel_sign (v : EReal) :
    Scalar.select (Ideal.cmp .oge v (Ideal.ofBits .f32 0x00000000#32)) (Ideal.ofBits .bf16 0x3F80#16) (Ideal.ofBits .bf16 0xBF80#16)
      = hardSign v := by
  rw [Ideal.ofBits_zero_f32, Ideal.ofBits_one_bf16, Ideal.ofBits_neg_one_bf16, select_oge_zero, EReal.coe_one]
  rfl

/-- The reference's sign of an element: (select (v ≥ 0.0) 1.0 (−1.0) − tanh v) + tanh v. -/
theorem reference_sign (v : EReal) :
    Scalar.select (Ideal.cmp .oge v (Ideal.ofBits .f32 0x00000000#32)) (Ideal.ofBits .f32 0x3F800000#32) (-(Ideal.ofBits .f32 0x3F800000#32))
        - Ideal.tanh v + Ideal.tanh v
      = hardSign v := by
  obtain ⟨r, hr⟩ := tanh_real v
  rw [Ideal.ofBits_zero_f32, Ideal.ofBits_one_f32, select_oge_zero, hr]
  unfold hardSign
  split_ifs with h
  · rw [← EReal.coe_one]; exact coe_sub_add_cancel 1 r
  · rw [← EReal.coe_one, ← EReal.coe_neg]; exact coe_sub_add_cancel (-1) r

/-- The f32 pattern 0xC1000000 is the real −8. -/
theorem ofBits_neg_eight : Ideal.ofBits .f32 0xC1000000#32 = ((-8 : ℝ) : EReal) := by
  simp [Ideal.ofBits, Ideal.ieee, -EReal.coe_mul, -EReal.coe_neg]; norm_num

/-- The embedding of the reals keeps minima and maxima. -/
theorem coe_min (a b : ℝ) : ((min a b : ℝ) : EReal) = min (a : EReal) (b : EReal) := EReal.coe_strictMono.monotone.map_min
theorem coe_max (a b : ℝ) : ((max a b : ℝ) : EReal) = max (a : EReal) (b : EReal) := EReal.coe_strictMono.monotone.map_max

/-- The shift clipped to [−8, 0]: min 0.0 (max (−8.0) s). -/
def clipShift (s : EReal) : EReal :=
  min (Ideal.ofBits .f32 0x00000000#32) (max (Ideal.ofBits .f32 0xC1000000#32) s)

/-- A clip between two real bounds is real, whatever is clipped. -/
theorem clipShift_real (s : EReal) : ∃ c : ℝ, clipShift s = (c : EReal) := by
  unfold clipShift
  rw [Ideal.ofBits_zero_f32, ofBits_neg_eight, ← EReal.coe_zero]
  induction s using EReal.rec with
  | bot => exact ⟨min 0 (-8), by rw [max_bot_right, ← coe_min]⟩
  | top => exact ⟨0, by rw [max_top_right, min_top_right]⟩
  | coe x => exact ⟨min 0 (max (-8) x), by rw [← coe_max, ← coe_min]⟩

/-- The power-of-two scale of a shift: 2.0 to the clipped shift rounded to the nearest integer (ties to even). -/
def pow2Scale (s : EReal) : EReal :=
  Ideal.pow (Ideal.ofBits .f32 0x40000000#32) (Ideal.liftRound Ideal.roundHalfEven (clipShift s))

/-- The reference's exponent c + (round c − c), c the clipped shift, is round c. -/
theorem reference_round (s : EReal) :
    clipShift s + (Ideal.liftRound Ideal.roundHalfEven (clipShift s) - clipShift s)
      = Ideal.liftRound Ideal.roundHalfEven (clipShift s) := by
  obtain ⟨c, hc⟩ := clipShift_real s
  rw [hc, Ideal.liftRound_coe]
  exact coe_add_sub_cancel c _

/-- THE SPECIFICATION: the binarized product, scaled. -/
def binLinear (x : (⟨3, ![4, 2048, 4096]⟩ : Shape).Idx → EReal) (w : (⟨2, ![16384, 4096]⟩ : Shape).Idx → EReal)
    (th : (⟨2, ![16384, 1]⟩ : Shape).Idx → EReal) (s : (⟨0, ![]⟩ : Shape).Idx → EReal) :
    (⟨3, ![4, 2048, 16384]⟩ : Shape).Idx → EReal :=
  fun i => (∑ k : Fin 4096, hardSign (x (ix3 (i 0) (i 1) k)) * hardSign (w (ix2 (i 2) k) - th (ix2 (i 2) (0 : Fin 1))))
    * pow2Scale (s ix0)

end Cert.BinLinear

end
-- ==== Proof.Payload.lean ====
/-
  The kernel body's stored value at an index. From the loaded blocks x0 (512 rows of x), x1 (512 rows of w), x2 (those
  rows of th) and x3 (the 1×1 scale) the body stores, at (p, q),
      (∑ k < 4096, sgn (x0 p k) · sgn (x1 q k − x2 q 0)) · x3 0 0 :
  the two selects are the hard signs, the matrix product contracts the second axis of both operands into a zero
  accumulator, and the scale is broadcast.
-/
import proofs.«159210_j24395414241518_1_alg».proof.Proof.Gen.KernelIdeal.Skeleton
import proofs.«159210_j24395414241518_1_alg».proof.Proof.BinSpec
import Idealize.ShloMosaic.Lib.Pipeline.Value

noncomputable section

namespace Cert.KernelIdeal.Payload

open Cert.KernelIdeal Cert.KernelIdeal.Gen Cert.BinLinear Idealize.ShloMosaic Idealize.ShloMosaic.ValueIdx

/-- The sign block of x: the select on x ≥ 0 between the two bf16 constants, at an index. -/
theorem lhs_sign (x0 : FVec Ideal S512x4096 .f32) (h : S512x4096.ShapeCasts S512x4096) (j : S512x4096.Idx) :
    select (cmpf .oge (shapeCast S512x4096 x0 h) (broadcast S512x4096 (Scalar.ofBits (F := Ideal) .f32 0x00000000#32)))
        (broadcast S512x4096 (Scalar.ofBits (F := Ideal) .bf16 0x3F80#16)) (broadcast S512x4096 (Scalar.ofBits (F := Ideal) .bf16 0xBF80#16)) j
      = hardSign (x0 j) := by
  rw [shapeCast_self]
  exact kernel_sign (x0 j)

/-- The threshold column broadcast along the rows reads the row's threshold. -/
theorem th_bcast (x2 : FVec Ideal S512x1 .f32) (h : S512x1.Broadcasts S512x4096) (q : Fin 512) (k : Fin 4096) :
    broadcastTo S512x4096 x2 h (ix2 q k) = x2 (ix2 q (0 : Fin 1)) :=
  broadcastTo_apply x2 h (ix2 q k) (ix2 q (0 : Fin 1)) (fun a => by
    match a with
    | ⟨0, _⟩ => show q.val = if (512 : Nat) = 1 then 0 else q.val; rw [if_neg (by decide)]
    | ⟨1, _⟩ => show 0 = if (1 : Nat) = 1 then 0 else k.val; rw [if_pos rfl])

/-- The sign block of w − th: the select on w − th ≥ 0, at an index. -/
theorem rhs_sign (x1 : FVec Ideal S512x4096 .f32) (x2 : FVec Ideal S512x1 .f32) (h : S512x1.Broadcasts S512x4096) (q : Fin 512) (k : Fin 4096) :
    select (cmpf .oge (subf x1 (broadcastTo S512x4096 x2 h)) (broadcast S512x4096 (Scalar.ofBits (F := Ideal) .f32 0x00000000#32)))
        (broadcast S512x4096 (Scalar.ofBits (F := Ideal) .bf16 0x3F80#16)) (broadcast S512x4096 (Scalar.ofBits (F := Ideal) .bf16 0xBF80#16)) (ix2 q k)
      = hardSign (x1 (ix2 q k) - x2 (ix2 q (0 : Fin 1))) := by
  have e := th_bcast x2 h q k
  refine Eq.trans ?_ (kernel_sign (x1 (ix2 q k) - x2 (ix2 q (0 : Fin 1))))
  show Scalar.select (Ideal.cmp .oge (x1 (ix2 q k) - broadcastTo S512x4096 x2 h (ix2 q k)) (Ideal.ofBits .f32 0x00000000#32)) _ _ = _
  rw [e]
  rfl

/-- On its kept axis the left operand's index is the output's row. -/
theorem lhs_row (i : S512x512.Idx) (c : dot_S512x4096_S512x4096_S512x512_1_1_0_0_n_n.contr.Idx) :
    (dot_S512x4096_S512x4096_S512x512_1_1_0_0_n_n.lhsIdx i c 0).val = (i 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

/-- On its kept axis the right operand's index is the output's column. -/
theorem rhs_row (i : S512x512.Idx) (c : dot_S512x4096_S512x4096_S512x512_1_1_0_0_n_n.contr.Idx) :
    (dot_S512x4096_S512x4096_S512x512_1_1_0_0_n_n.rhsIdx i c 0).val = (i 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

/-- The matrix product into the zero accumulator at (p, q): the sum over k of A (p, k) · B (q, k). -/
theorem matmul_at (A B : FVec Ideal S512x4096 .bf16) (p q : Fin 512) :
    matmul dot_S512x4096_S512x4096_S512x512_1_1_0_0_n_n none A B (constant (F := Ideal) S512x512 .f32 0x00000000#32) (ix2 p q)
      = ∑ k : Fin 4096, A (ix2 p k) * B (ix2 q k) := by
  simp only [matmul]
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k :=
    funext fun a => Fin.ext (by
      match a with
      | ⟨0, _⟩ => exact lhs_row _ _
      | ⟨1, _⟩ => exact (dot_S512x4096_S512x4096_S512x512_1_1_0_0_n_n.lhsIdx_val_of_single rfl _ _).trans hk)
  have er : dot_S512x4096_S512x4096_S512x512_1_1_0_0_n_n.rhsIdx (ix2 p q) ((contrEquiv1 dot_S512x4096_S512x4096_S512x512_1_1_0_0_n_n 4096 rfl rfl).symm k) = ix2 q k :=
    funext fun a => Fin.ext (by
      match a with
      | ⟨0, _⟩ => exact rhs_row _ _
      | ⟨1, _⟩ => exact (dot_S512x4096_S512x4096_S512x512_1_1_0_0_n_n.rhsIdx_val_of_single rfl _ _).trans hk)
  rw [el, er]

/-- THE STORED VALUE at (p, q). -/
theorem payload_at (x0 x1 : Vec Ideal S512x4096 .f32) (x2 : Vec Ideal S512x1 .f32) (x3 : Vec Ideal S1x1 .f32) (p q : Fin 512) :
    k0_pay1 (F := Ideal) x0 x1 x2 x3 (ix2 p q)
      = (∑ k : Fin 4096, hardSign (x0 (ix2 p k)) * hardSign (x1 (ix2 q k) - x2 (ix2 q (0 : Fin 1)))) * x3 (ix2 (0 : Fin 1) (0 : Fin 1)) := by
  unfold k0_pay1
  refine (mulf_apply _ _ (ix2 p q)).trans ?_
  refine congrArg₂ (· * ·) ?_ ?_
  · refine (matmul_at _ _ p q).trans ?_
    refine Finset.sum_congr rfl fun k _ => ?_
    exact congrArg₂ (· * ·) (lhs_sign x0 _ (ix2 p k)) (rhs_sign x1 x2 _ q k)
  · show x3 _ = x3 _
    exact congrArg x3 (funext fun a => Fin.ext (by
      match a with
      | ⟨0, _⟩ => rfl
      | ⟨1, _⟩ => rfl))

end Cert.KernelIdeal.Payload

end
-- ==== Proof.Blocks.lean ====
/-
  From the blocks to the region's output array. The grid is 16 × 32; at point (i, j) the body sees rows 512·i … of the
  reshaped x, rows 512·j … of w and of th, and the 1×1 scale, and writes the 512 × 512 block (i, j) of the
  8192 × 16384 output. The value stored at (p, q) of that block is the region's function at row 512·i + p and column
  512·j + q of the arrays as the region finds them; the 512 blocks tile the output, so the array ends at that function.
-/
import proofs.«159210_j24395414241518_1_alg».proof.Proof.Gen.KernelIdeal.Frame
import proofs.«159210_j24395414241518_1_alg».proof.Proof.Payload
import Idealize.ShloMosaic.Lib.Pipeline.Value

noncomputable section

namespace Cert.KernelIdeal.Blocks

open Cert.KernelIdeal Cert.KernelIdeal.Gen Cert.KernelIdeal.Payload Cert.BinLinear
open Idealize.ShloMosaic Idealize.ShloMosaic.TcCoe Idealize.SL.Sem Idealize.ShloMosaic.ValueIdx
open Idealize.ShloMosaic.Pipeline (Dat)

/-- The region's output as one function of the four arrays it stages: at (r, o) the sum over k of the signs of X (r, k)
    and of W (o, k) − TH (o, 0), times the scale's one entry. -/
def regionOut (X : S8192x4096.Idx → EReal) (W : S16384x4096.Idx → EReal) (TH : S16384x1.Idx → EReal) (SC : S1x1.Idx → EReal) :
    S8192x16384.Idx → EReal :=
  fun i => (∑ k : Fin 4096, hardSign (X (ix2 (i 0) k)) * hardSign (W (ix2 (i 1) k) - TH (ix2 (i 1) (0 : Fin 1))))
    * SC (ix2 (0 : Fin 1) (0 : Fin 1))

/-- The body's stored value at a block index is the region's function at the array index that block index sits at,
    when the loaded blocks are the arrays' rows at block row `bi` (of X) and block row `bj` (of W and TH). -/
theorem block_value (X : S8192x4096.Idx → EReal) (W : S16384x4096.Idx → EReal) (TH : S16384x1.Idx → EReal) (SC : S1x1.Idx → EReal)
    (x0 x1 : Vec Ideal S512x4096 .f32) (x2 : Vec Ideal S512x1 .f32) (x3 : Vec Ideal S1x1 .f32) (bi bj : Nat)
    (y : S512x512.Idx) (i : S8192x16384.Idx)
    (hi0 : (i 0).val = bi * 512 + (y 0).val) (hi1 : (i 1).val = bj * 512 + (y 1).val)
    (h0 : ∀ (p : Fin 512) (k : Fin 4096) (r : Fin 8192), r.val = bi * 512 + p.val → x0 (ix2 p k) = X (ix2 r k))
    (h1 : ∀ (q : Fin 512) (k : Fin 4096) (o : Fin 16384), o.val = bj * 512 + q.val → x1 (ix2 q k) = W (ix2 o k))
    (h2 : ∀ (q : Fin 512) (o : Fin 16384), o.val = bj * 512 + q.val → x2 (ix2 q (0 : Fin 1)) = TH (ix2 o (0 : Fin 1)))
    (h3 : x3 (ix2 (0 : Fin 1) (0 : Fin 1)) = SC (ix2 (0 : Fin 1) (0 : Fin 1))) :
    k0_pay1 (F := Ideal) x0 x1 x2 x3 y = regionOut X W TH SC i := by
  obtain ⟨p, q, rfl⟩ : ∃ (p q : Fin 512), y = ix2 p q := ⟨y 0, y 1, eq_ix2 y⟩
  obtain ⟨r, o, rfl⟩ : ∃ (r : Fin 8192) (o : Fin 16384), i = ix2 r o := ⟨i 0, i 1, eq_ix2 i⟩
  have hr : r.val = bi * 512 + p.val := hi0
  have ho : o.val = bj * 512 + q.val := hi1
  refine (payload_at x0 x1 x2 x3 p q).trans ?_
  unfold regionOut
  refine congrArg₂ (· * ·) (Finset.sum_congr rfl fun k _ => ?_) h3
  show hardSign (x0 (ix2 p k)) * hardSign (x1 (ix2 q k) - x2 (ix2 q (0 : Fin 1)))
    = hardSign (X (ix2 r k)) * hardSign (W (ix2 o k) - TH (ix2 o (0 : Fin 1)))
  rw [h0 p k r hr, h1 q k o ho, h2 q o ho]

variable (m : (ℓ : Loc nD τ sig) → Buf (Elt Ideal) ℓ)

theorem hz : (![0, 0] : Fin 2 → Nat) = fun _ => 0 := funext fun a => by fin_cases a <;> rfl

/-- The printed index maps, decided over the 512 grid points: x's block row is the output's, w's and th's block row is
    the output's block column, the second block index of every input is zero, and the output's block (i, j) belongs to
    point 32·i + j. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = 0
    ∧ win0_4.index t (0 : Fin 2) = t.val / 32 ∧ win0_4.index t (1 : Fin 2) = t.val % 32 :=
  (by decide +kernel : ∀ t : Fin grid0.N, _)

/-- WHAT POINT `t` WRITES BACK is block `t` of the region's function of the arrays as the region finds them. -/
theorem flushed_eq (c : Dev nD) (t : Fin cfg0.N) :
    (dats m 0 c).flushed 4 t = ((cfg0.win 4).blk t).view.read (Elt Ideal)
      (regionOut (V m c main_v0) (V m c main_arg1) (V m c main_arg2) (V m c main_v4)) := by
  show (cfg0.win 4).cut (grid0.coords t) ((dats m 0 c).after 4 t) = _
  rw [after0_4]
  unfold out0_4
  rw [View.canon_unit_zero hz]
  simp only [View.ld_unit_zero (S := S512x4096) hz, View.ld_unit_zero (S := S512x1) hz, View.ld_unit_zero (S := S1x1) hz]
  obtain ⟨e00, e01, e10, e11, e20, e21, e30, e31, e40, e41⟩ := idx_facts t
  funext j
  show k0_pay1 (F := Ideal) (iblk m c 0 t) (iblk m c 1 t) (iblk m c 2 t) (iblk m c 3 t) j
    = regionOut (V m c main_v0) (V m c main_arg1) (V m c main_arg2) (V m c main_v4) (((cfg0.win 4).blk t).view.emb j)
  refine block_value (V m c main_v0) (V m c main_arg1) (V m c main_arg2) (V m c main_v4)
    (iblk m c 0 t) (iblk m c 1 t) (iblk m c 2 t) (iblk m c 3 t) (win0_4.index t (0 : Fin 2)) (win0_4.index t (1 : Fin 2))
    j (((cfg0.win 4).blk t).view.emb j) ?_ ?_ ?_ ?_ ?_ ?_
  · show win0_4.index t (0 : Fin 2) * 512 + 1 * (j 0).val = win0_4.index t (0 : Fin 2) * 512 + (j 0).val
    omega
  · show win0_4.index t (1 : Fin 2) * 512 + 1 * (j 1).val = win0_4.index t (1 : Fin 2) * 512 + (j 1).val
    omega
  · intro p k r hr
    show V m c main_v0 (((cfg0.win 0).blk t).view.emb (ix2 p k)) = V m c main_v0 (ix2 r k)
    refine congrArg (V m c main_v0) (funext fun a => Fin.ext ?_)
    match a with
    | ⟨0, _⟩ => show win0_0.index t (0 : Fin 2) * 512 + 1 * p.val = r.val; omega
    | ⟨1, _⟩ => show win0_0.index t (1 : Fin 2) * 4096 + 1 * k.val = k.val; omega
  · intro q k o ho
    show V m c main_arg1 (((cfg0.win 1).blk t).view.emb (ix2 q k)) = V m c main_arg1 (ix2 o k)
    refine congrArg (V m c main_arg1) (funext fun a => Fin.ext ?_)
    match a with
    | ⟨0, _⟩ => show win0_1.index t (0 : Fin 2) * 512 + 1 * q.val = o.val; omega
    | ⟨1, _⟩ => show win0_1.index t (1 : Fin 2) * 4096 + 1 * k.val = k.val; omega
  · intro q o ho
    show V m c main_arg2 (((cfg0.win 2).blk t).view.emb (ix2 q (0 : Fin 1))) = V m c main_arg2 (ix2 o (0 : Fin 1))
    refine congrArg (V m c main_arg2) (funext fun a => Fin.ext ?_)
    match a with
    | ⟨0, _⟩ => show win0_2.index t (0 : Fin 2) * 512 + 1 * q.val = o.val; omega
    | ⟨1, _⟩ => show win0_2.index t (1 : Fin 2) * 1 + 1 * 0 = 0; omega
  · show V m c main_v4 (((cfg0.win 3).blk t).view.emb (ix2 (0 : Fin 1) (0 : Fin 1))) = V m c main_v4 (ix2 (0 : Fin 1) (0 : Fin 1))
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega

/-- An index of the output array is in point `t`'s block iff each coordinate is in the block's range on its axis. -/
theorem mem_blk (t : Fin cfg0.N) (i : S8192x16384.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v5).slice (win0_4.rect t)).set ↔ _
  rw [View.set_slice_whole, Rect.mem_set_unit]
  exact Iff.rfl

/-- The blocks tile the output: (r, o) lies in the block of the point 32·(r / 512) + o / 512. -/
theorem cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hlt : (i 0).val / 512 * 32 + (i 1).val / 512 < cfg0.N := by
    show _ < grid0.N
    rw [N_0]; omega
  obtain ⟨-, -, -, -, -, -, -, -, e40, e41⟩ := idx_facts ⟨(i 0).val / 512 * 32 + (i 1).val / 512, hlt⟩
  have q0 : win0_4.index ⟨(i 0).val / 512 * 32 + (i 1).val / 512, hlt⟩ (0 : Fin 2) = ((i 0).val / 512 * 32 + (i 1).val / 512) / 32 := e40
  have q1 : win0_4.index ⟨(i 0).val / 512 * 32 + (i 1).val / 512, hlt⟩ (1 : Fin 2) = ((i 0).val / 512 * 32 + (i 1).val / 512) % 32 := e41
  refine ⟨⟨(i 0).val / 512 * 32 + (i 1).val / 512, hlt⟩, flush0_4 _, ?_⟩
  rw [mem_blk]
  intro a
  match a with
  | ⟨0, _⟩ =>
    show win0_4.index ⟨(i 0).val / 512 * 32 + (i 1).val / 512, hlt⟩ (0 : Fin 2) * 512 ≤ (i 0).val
      ∧ (i 0).val < win0_4.index ⟨(i 0).val / 512 * 32 + (i 1).val / 512, hlt⟩ (0 : Fin 2) * 512 + 512
    omega
  | ⟨1, _⟩ =>
    show win0_4.index ⟨(i 0).val / 512 * 32 + (i 1).val / 512, hlt⟩ (1 : Fin 2) * 512 ≤ (i 1).val
      ∧ (i 1).val < win0_4.index ⟨(i 0).val / 512 * 32 + (i 1).val / 512, hlt⟩ (1 : Fin 2) * 512 + 512
    omega

/-- THE REGION'S OUTPUT ARRAY after the run is the region's function of the arrays as the region finds them. -/
theorem final (c : Dev nD) :
    (dats m 0 c).arrAt 4 cfg0.N = regionOut (V m c main_v0) (V m c main_arg1) (V m c main_arg2) (V m c main_v4) :=
  (dats m 0 c).arrAt_eq_of_cover 4 _ (fun t _ => flushed_eq m c t) cover

end Cert.KernelIdeal.Blocks

end
-- ==== Proof.KernelValue.lean ====
/-
  The kernel program's result. Around the region the host reshapes x from [4, 2048, 4096] to [8192, 4096], computes the
  scale 2.0 ^ round (clip s) as a 1×1 array, and after the region reshapes the [8192, 16384] output to
  [4, 2048, 16384]. Row-major, (b, r) of the leading two axes is row 2048·b + r, so the region's function at
  (2048·b + r, o) of the reshaped x is the specification at (b, r, o) of x itself.
-/
import proofs.«159210_j24395414241518_1_alg».proof.Proof.Blocks
import Idealize.ShloMosaic.Lib.StableHlo.Run
import Idealize.ShloMosaic.Lib.ValueIdx

noncomputable section

namespace Cert.KernelIdeal.KernelValue

open Cert.KernelIdeal Cert.KernelIdeal.Gen Cert.KernelIdeal.Blocks Cert.BinLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds x reshaped to [8192, 4096]. -/
theorem x_reshaped (c : Dev nD) : (V m c main_v0 : S8192x4096.Idx → EReal)
    = shapeCast S8192x4096 (m ((c : Thread nD τ).loc main_arg0)) shapeCasts_S4x2048x4096_S8192x4096 := by
  dsimp only [V, V0]
  simp only [hostOps0, hostOps0_1, hostOps0_2, hostOps0_3, List.flatten_cons, List.flatten_nil, List.append_nil, List.cons_append, List.nil_append]
  after_results
  rfl

/-- The region finds the scale as the 1×1 reshape of 2.0 to the rounded clipped shift. -/
theorem scale_computed (c : Dev nD) : (V m c main_v4 : S1x1.Idx → EReal)
    = shapeCast S1x1 (Host.powf (constant (F := Ideal) S_ .f32 0x40000000#32)
        (Host.roundeven (minimumf (id (constant (F := Ideal) S_ .f32 0x00000000#32))
          (maximumf (id (constant (F := Ideal) S_ .f32 0xC1000000#32)) (m ((c : Thread nD τ).loc main_arg3)))))) shapeCasts_S_S1x1 := by
  dsimp only [V, V0]
  simp only [hostOps0, hostOps0_1, hostOps0_2, hostOps0_3, List.flatten_cons, List.flatten_nil, List.append_nil, List.cons_append, List.nil_append]
  after_results
  rfl

/-- Its one entry is the power-of-two scale of the shift. -/
theorem scale_entry (c : Dev nD) :
    V m c main_v4 (ix2 (0 : Fin 1) (0 : Fin 1)) = pow2Scale (m ((c : Thread nD τ).loc main_arg3) ix0) := by
  have e := congrFun (scale_computed m c) (ix2 (0 : Fin 1) (0 : Fin 1))
  refine e.trans ?_
  refine (shapeCast_apply _ shapeCasts_S_S1x1 (ix2 (0 : Fin 1) (0 : Fin 1)) ix0 (by decide)).trans ?_
  rfl

/-- Row 2048·b + r of the reshaped x is row (b, r) of x. -/
theorem x_row (c : Dev nD) (b : Fin 4) (r : Fin 2048) (R : Fin 8192) (hR : R.val = b.val * 2048 + r.val) (k : Fin 4096) :
    V m c main_v0 (ix2 R k) = m ((c : Thread nD τ).loc main_arg0) (ix3 b r k) := by
  refine (congrFun (x_reshaped m c) (ix2 R k)).trans ?_
  refine shapeCast_apply _ shapeCasts_S4x2048x4096_S8192x4096 (ix2 R k) (ix3 b r k) ?_
  rw [Shape.rowMajor_val_two, Shape.rowMajor_val_three]
  show (b.val * 2048 + r.val) * 4096 + k.val = R.val * 4096 + k.val
  rw [hR]

/-- The region's function of arrays X (x reshaped), W, TH and SC (the scale), reshaped to [4, 2048, 16384], is the
    specification of x, w, th and the shift. -/
theorem reshape_spec (x : S4x2048x4096.Idx → EReal) (w : S16384x4096.Idx → EReal) (th : S16384x1.Idx → EReal) (s : S_.Idx → EReal)
    (X : S8192x4096.Idx → EReal) (W : S16384x4096.Idx → EReal) (TH : S16384x1.Idx → EReal) (SC : S1x1.Idx → EReal)
    (hX : ∀ (b : Fin 4) (r : Fin 2048) (R : Fin 8192), R.val = b.val * 2048 + r.val → ∀ k : Fin 4096, X (ix2 R k) = x (ix3 b r k))
    (hW : W = w) (hTH : TH = th) (hS : SC (ix2 (0 : Fin 1) (0 : Fin 1)) = pow2Scale (s ix0)) :
    shapeCast S4x2048x16384 (regionOut X W TH SC) shapeCasts_S8192x16384_S4x2048x16384 = binLinear x w th s := by
  subst hW hTH
  funext i
  obtain ⟨b, r, o, rfl⟩ : ∃ (b : Fin 4) (r : Fin 2048) (o : Fin 16384), i = ix3 b r o := ⟨i 0, i 1, i 2, eq_ix3 i⟩
  have hRlt : b.val * 2048 + r.val < 8192 := by have := b.isLt; have := r.isLt; omega
  refine (shapeCast_apply _ shapeCasts_S8192x16384_S4x2048x16384 (ix3 b r o) (ix2 (⟨b.val * 2048 + r.val, hRlt⟩ : Fin 8192) o) (by
    rw [Shape.rowMajor_val_two, Shape.rowMajor_val_three]; rfl)).trans ?_
  show (∑ k : Fin 4096, hardSign (X (ix2 (⟨b.val * 2048 + r.val, hRlt⟩ : Fin 8192) k))
        * hardSign (W (ix2 o k) - TH (ix2 o (0 : Fin 1)))) * SC (ix2 (0 : Fin 1) (0 : Fin 1))
    = (∑ k : Fin 4096, hardSign (x (ix3 b r k)) * hardSign (W (ix2 o k) - TH (ix2 o (0 : Fin 1)))) * pow2Scale (s ix0)
  rw [hS]
  refine congrArg (· * pow2Scale (s ix0)) (Finset.sum_congr rfl fun k _ => ?_)
  rw [hX b r ⟨b.val * 2048 + r.val, hRlt⟩ rfl k]

/-- So the region's function of the arrays the region finds, reshaped, is the specification of the program's arguments. -/
theorem reshaped_out (c : Dev nD) :
    shapeCast S4x2048x16384 (regionOut (V m c main_v0) (V m c main_arg1) (V m c main_arg2) (V m c main_v4)) shapeCasts_S8192x16384_S4x2048x16384
      = binLinear (m ((c : Thread nD τ).loc main_arg0)) (m ((c : Thread nD τ).loc main_arg1)) (m ((c : Thread nD τ).loc main_arg2))
          (m ((c : Thread nD τ).loc main_arg3)) :=
  reshape_spec (m ((c : Thread nD τ).loc main_arg0)) (m ((c : Thread nD τ).loc main_arg1)) (m ((c : Thread nD τ).loc main_arg2))
    (m ((c : Thread nD τ).loc main_arg3)) (V m c main_v0) (V m c main_arg1) (V m c main_arg2) (V m c main_v4)
    (fun b r R hR k => x_row m c b r R hR k) (V_main_arg1 m c) (V_main_arg2 m c) (scale_entry m c)

/-- The program's result after the host's last reshape: the region's output array, reshaped. -/
theorem tail_eq (c : Dev nD) :
    (Pipeline.afterTail₀ cfgs (dats m) 0 (V0 m) [hostOps1] c main_v6 : S4x2048x16384.Idx → EReal)
      = shapeCast S4x2048x16384 ((dats m 0 c).arrAt 4 cfg0.N) shapeCasts_S8192x16384_S4x2048x16384 := by
  unfold Pipeline.afterTail₀
  show StableHlo.after hostOps1 _ (Proc.devRef .tc main_v6) = _
  after_results
  show shapeCast S4x2048x16384 (Pipeline.withArrays spec0 c (V0 m c) (fun w => (dats m 0 c).arrAt w cfg0.N)
      (Proc.devRef .tc (Pipeline.arrRef spec0 4))) shapeCasts_S8192x16384_S4x2048x16384 = _
  rw [Pipeline.withArrays_arr spec0 launch0.win.arr_inj c _ _ 4]

/-- THE KERNEL PROGRAM'S RUN: every weakly fair execution terminates with the result at the specification of the
    arguments, the arguments unchanged. -/
theorem run : θ_run defs (onTc (τ := τ) (main (F := Ideal))) ⟨m, fun _ => 0, ρ⟩ fun r => ∀ c : Dev nD,
      r.2.mem ((c.tc : Thread nD τ).loc main_v6) = binLinear (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans
        ((tail_eq m c).trans ((congrArg (fun A => shapeCast S4x2048x16384 A shapeCasts_S8192x16384_S4x2048x16384) (final m c)).trans (reshaped_out m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.RefSpec.lean ====
/-
  The reference computes the specification. Its result, read one operation at a time, is at (b, r, o) the product of
  ∑ k, xb (b, r, k) · wb (o, k) with the broadcast scale, where xb and wb are the straight-through signs
  (sgn v − tanh v) + tanh v of x and of w − th, and the scale is 2.0 to the exponent c + (round c − c), c the clipped
  shift: by the scalar identities these are sgn and 2 ^ round c.
-/
import proofs.«159210_j24395414241518_1_alg».proof.Proof.Gen.ReferenceIdeal.Read
import proofs.«159210_j24395414241518_1_alg».proof.Proof.BinSpec

noncomputable section

namespace Cert.ReferenceIdeal.RefSpec

open Cert.ReferenceIdeal Cert.ReferenceIdeal.Read Cert.BinLinear Idealize.ShloMosaic Idealize.ShloMosaic.ValueIdx

/-- The reference's binarized x at an index is the hard sign of x there. -/
theorem xb_apply (x : (⟨S4x2048x4096, .f32⟩ : BufTy).Contents (Elt Ideal)) (j : S4x2048x4096.Idx) :
    val_main_v8 (F := Ideal) x j = hardSign (x j) := by
  rw [val_main_v8_apply, val_main_v7_apply, val_main_v6_apply, val_main_v2_apply, val_main_v1_apply, val_main_cst_apply,
    val_main_v3_apply, val_main_cst_0_apply, val_main_v5_apply, val_main_v4_apply, val_main_cst_1_apply, val_main_v0_apply]
  exact reference_sign (x j)

/-- The reference's binarized w − th at an index is the hard sign of w there minus th in that row. -/
theorem wb_apply (w : (⟨S16384x4096, .f32⟩ : BufTy).Contents (Elt Ideal)) (th : (⟨S16384x1, .f32⟩ : BufTy).Contents (Elt Ideal))
    (j : S16384x4096.Idx) :
    val_main_v19 (F := Ideal) w th j = hardSign (w j - th (idx_main_v9 j)) := by
  rw [val_main_v19_apply, val_main_v18_apply, val_main_v17_apply, val_main_v13_apply, val_main_v12_apply, val_main_cst_2_apply,
    val_main_v14_apply, val_main_cst_3_apply, val_main_v16_apply, val_main_v15_apply, val_main_cst_4_apply, val_main_v11_apply,
    val_main_v10_apply, val_main_v9_apply]
  exact reference_sign (w j - th (idx_main_v9 j))

/-- The reference's scale is the power-of-two scale of the shift. -/
theorem scale_apply (s : (⟨S_, .f32⟩ : BufTy).Contents (Elt Ideal)) (i : S_.Idx) :
    val_main_v25 (F := Ideal) s i = pow2Scale (s i) := by
  rw [val_main_v25_apply, val_main_cst_7_apply, val_main_v24_apply, val_main_v23_apply, val_main_v22_apply, val_main_v21_apply,
    val_main_call2_v2_apply, val_main_cst_6_apply, val_main_call2_v1_apply, val_main_call2_v0_apply, val_main_cst_5_apply]
  exact congrArg (Ideal.pow (Ideal.ofBits .f32 0x40000000#32)) (reference_round (s i))

/-- THE REFERENCE IS THE SPECIFICATION. -/
theorem result_eq (x : (⟨S4x2048x4096, .f32⟩ : BufTy).Contents (Elt Ideal)) (w : (⟨S16384x4096, .f32⟩ : BufTy).Contents (Elt Ideal))
    (th : (⟨S16384x1, .f32⟩ : BufTy).Contents (Elt Ideal)) (s : (⟨S_, .f32⟩ : BufTy).Contents (Elt Ideal)) :
    val_main_v27 (F := Ideal) x w th s = binLinear x w th s := by
  funext i
  rw [val_main_v27_apply, val_main_v20_apply, val_main_v26_apply, scale_apply]
  have el : ∀ k : Fin 4096, lidx_main_v20 i k = ix3 (i 0) (i 1) k := fun k => funext fun a => Fin.ext (by
    match a with
    | ⟨0, _⟩ => rfl
    | ⟨1, _⟩ => rfl
    | ⟨2, _⟩ => rfl)
  have er : ∀ k : Fin 4096, ridx_main_v20 i k = ix2 (i 2) k := fun k => funext fun a => Fin.ext (by
    match a with
    | ⟨0, _⟩ => rfl
    | ⟨1, _⟩ => rfl)
  have et : ∀ k : Fin 4096, idx_main_v9 (ix2 (i 2) k) = ix2 (i 2) (0 : Fin 1) := fun k => funext fun a => Fin.ext (by
    match a with
    | ⟨0, _⟩ => rfl
    | ⟨1, _⟩ => rfl)
  have e0 : idx_main_v26 i = ix0 := funext fun a => a.elim0
  simp only [el, er, e0]
  refine congrArg (· * pow2Scale (s ix0)) (Finset.sum_congr rfl fun k _ => ?_)
  refine congrArg₂ (· * ·) (xb_apply x (ix3 (i 0) (i 1) k)) ((wb_apply w th (ix2 (i 2) k)).trans ?_)
  exact congrArg (fun j => hardSign (w (ix2 (i 2) k) - th j)) (et k)

end Cert.ReferenceIdeal.RefSpec

end
-- ==== Proof.lean ====
/-
  The kernel and the reference compute one function on the extended reals.

  For x : [4, 2048, 4096], w : [16384, 4096], th : [16384, 1] and a scalar shift s, both programs end with, at (b, r, o),
      (∑ k < 4096, sgn (x b r k) · sgn (w o k − th o 0)) · 2 ^ round (clip s (−8) 0),
  sgn v being 1 for 0 ≤ v and −1 below zero (Proof/BinSpec.lean).
  The kernel reshapes x to 8192 rows, selects ±1 block by block, multiplies 512 × 4096 sign blocks on a 16 × 32 grid,
  scales each 512 × 512 product and writes it as one block of the output, which the host reshapes back
  (Proof/Payload.lean: the stored value at an index; Proof/Blocks.lean: the blocks tile the output; Proof/KernelValue.lean:
  the reshapes and the run). The reference spells each sign (sgn v − tanh v) + tanh v and the exponent c + (round c − c);
  tanh of an extended real and a clip between finite bounds are real numbers, so both collapse with no hypothesis on
  the inputs (Proof/RefSpec.lean). Nothing was rewritten between the kernel and its idealization, so that conjunct is
  trivial; each program's termination, absence of faults and unchanged arguments come from its run.
-/
import proofs.«159210_j24395414241518_1_alg».proof.Defs
import proofs.«159210_j24395414241518_1_alg».proof.Proof.Gen.Kernel
import proofs.«159210_j24395414241518_1_alg».proof.Proof.Gen.Kernel.Skeleton
import proofs.«159210_j24395414241518_1_alg».proof.Proof.Gen.Kernel.Launch
import proofs.«159210_j24395414241518_1_alg».proof.Proof.Gen.Kernel.Points
import proofs.«159210_j24395414241518_1_alg».proof.Proof.Gen.Kernel.Frame
import proofs.«159210_j24395414241518_1_alg».proof.Proof.Gen.KernelIdeal
import proofs.«159210_j24395414241518_1_alg».proof.Proof.Gen.KernelIdeal.Skeleton
import proofs.«159210_j24395414241518_1_alg».proof.Proof.Gen.KernelIdeal.Launch
import proofs.«159210_j24395414241518_1_alg».proof.Proof.Gen.KernelIdeal.Points
import proofs.«159210_j24395414241518_1_alg».proof.Proof.Gen.KernelIdeal.Frame
import proofs.«159210_j24395414241518_1_alg».proof.Proof.Gen.ReferenceIdeal
import proofs.«159210_j24395414241518_1_alg».proof.Proof.Gen.ReferenceIdeal.Run
import proofs.«159210_j24395414241518_1_alg».proof.Proof.Gen.ReferenceIdeal.Read
import proofs.«159210_j24395414241518_1_alg».proof.Proof.Gen.Pre_finite_inputs
import proofs.«159210_j24395414241518_1_alg».proof.Proof.KernelValue
import proofs.«159210_j24395414241518_1_alg».proof.Proof.RefSpec
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end at the specification of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefSpec.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
